-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S50000 : Shape := ⟨1, ![50000]⟩
abbrev S64x64 : Shape := ⟨2, ![64, 64]⟩
abbrev S1x64 : Shape := ⟨2, ![1, 64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S1x64 : S_.BroadcastsInDim S1x64 (![] : Fin 0 → Fin S1x64.rank)
  reducesTo_S1x64_S_d0_1 : S1x64.ReducesTo [0, 1] S_

variable [Facts]

def fn_part1 {F : FTy → Type} [FloatOps F] (main_v13 : IVec S_ 1) (main_v16 : IVec S1x64 1) : IVec S_ 1 :=
  let main_c_5 : IVec S_ 1 := constantI S_ 1 1#1
  let main_v17 : IVec S_ 1 := (fun x v => Host.reduce IntOp.andi x v reducesTo_S1x64_S_d0_1 h_S_) main_v16 main_c_5
  let main_v18 : IVec S_ 1 := andi main_v13 main_v17
  main_v18

def fn {F : FTy → Type} [FloatOps F] (main_arg0 : FVec F S50000x64 .f32) (main_arg1 : IVec S2x800000 32) (main_arg2 : IVec S50000 32) (main_arg3 : FVec F S64x64 .f32) (main_arg4 : FVec F S64x64 .f32) (main_arg5 : FVec F S1x64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S1x64 .f32 := Host.absf main_arg5
  let main_cst_4 : FVec F S_ .f32 := constant S_ .f32 0x7F800000#32
  let main_v15 : FVec F S1x64 .f32 := broadcastInDim S1x64 ![] bcast_S_S1x64 main_cst_4
  let main_v16 : IVec S1x64 1 := cmpf .olt main_v14 main_v15
  fn_part1 (F := F) main_v13 main_v16
-- ==== Kernel.lean ====
abbrev S50000x64 : Shape := ⟨2, ![50000, 64]⟩
abbrev S2x800000 : Shape := ⟨2, ![2, 800000]⟩
abbrev S50000 : Shape := ⟨1, ![50000]⟩
abbrev S64x64 : Shape := ⟨2, ![64, 64]⟩
abbrev S1x64 : Shape := ⟨2, ![1, 64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S5000x64 : Shape := ⟨2, ![5000, 64]⟩
abbrev S50000x1 : Shape := ⟨2, ![50000, 1]⟩
abbrev S5000x1 : Shape := ⟨2, ![5000, 1]⟩
abbrev S5000 : Shape := ⟨1, ![5000]⟩

abbrev nBuf : Space → Nat
  | .hbm => 53
  | .vmem => 29
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S50000, .i32⟩
  | .hbm, ⟨3, _⟩ => ⟨S64x64, .f32⟩
  | .hbm, ⟨4, _⟩ => ⟨S64x64, .f32⟩
  | .hbm, ⟨5, _⟩ => ⟨S1x64, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x64, .f32⟩
  | .hbm, ⟨19, _⟩ => ⟨S_, .f32⟩
  | .hbm, ⟨20, _⟩ => ⟨S50000x64, .f32⟩
  | .hbm, ⟨21, _⟩ => ⟨S800000x1, .i32⟩
  | .hbm, ⟨22, _⟩ => ⟨S50000x64, .f32⟩
  | .hbm, ⟨23, _⟩ => ⟨S50000x64, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x64, .f32⟩
  | .hbm, ⟨33, _⟩ => ⟨S_, .f32⟩
  | .hbm, ⟨34, _⟩ => ⟨S50000x64, .f32⟩
  | .hbm, ⟨35, _⟩ => ⟨S800000x1, .i32⟩
  | .hbm, ⟨36, _⟩ => ⟨S50000x64, .f32⟩
  | .hbm, ⟨37, _⟩ => ⟨S50000x64, .f32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S800000x64, .f32⟩
  | .hbm, ⟨47, _⟩ => ⟨S_, .f32⟩
  | .hbm, ⟨48, _⟩ => ⟨S50000x64, .f32⟩
  | .hbm, ⟨49, _⟩ => ⟨S800000x1, .i32⟩
  | .hbm, ⟨50, _⟩ => ⟨S50000x64, .f32⟩
  | .hbm, ⟨51, _⟩ => ⟨S50000x64, .f32⟩
  | .hbm, ⟨52, _⟩ => ⟨S50000x1, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S64x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x64, .f32⟩
  | .local _ .vmem, ⟨13, _⟩ => ⟨S64x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S64x64, .f32⟩
  | .local _ .vmem, ⟨21, _⟩ => ⟨S64x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S1x64, .f32⟩
  | .local _ .vmem, ⟨27, _⟩ => ⟨S5000x1, .f32⟩
  | .local _ .vmem, ⟨28, _⟩ => ⟨S5000x1, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_4 : Ref sig .tc := ⟨.hbm, 38, rfl⟩
abbrev main_v26 : Ref sig .tc := ⟨.hbm, 39, rfl⟩
abbrev main_v27 : Ref sig .tc := ⟨.hbm, 40, rfl⟩
abbrev main_c_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg2_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem2_1 : DmaSem sig := 28

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  broadcasts_S1x64_S5000x64 : S1x64.Broadcasts S5000x64
  reduces_S5000x64_S5000 : S5000x64.Reduces [1] S5000
  shapeCasts_S5000_S5000x1 : S5000.ShapeCasts S5000x1
  inb_S5000x1_S5000x1_0_0 : ∀ a, (![0, 0] : Fin 2 → Nat) a + S5000x1.size a ≤ S5000x1.size a
  h_S5000x1 : 0 < S5000x1.numel
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_1_0_0_n_n_wf : DotDims.WF S5000x64 S64x64 S5000x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S50000x64.size a
  hwx0_4 : ∀ i : grid0.Coords, EltTy.bits .f32 = 32 ∨ (Rect.block (s := S50000x64) S5000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S50000x64.size a
  hwx1_4 : ∀ i : grid1.Coords, EltTy.bits .f32 = 32 ∨ (Rect.block (s := S50000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S50000x64.size a
  hwx2_4 : ∀ i : grid2.Coords, EltTy.bits .f32 = 32 ∨ (Rect.block (s := S50000x64) S5000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_1_0_0_n_n : DotDims S5000x64 S64x64 S5000x64 where
  lhsContracting := [1]
  rhsContracting := [1]
  lhsNonContracting := [0]
  rhsNonContracting := [0]
  lhsBatch := []
  rhsBatch := []
  wf := dot_S5000x64_S64x64_S5000x64_1_1_0_0_n_n_wf

abbrev win0_0 : Pipeline.Window sig grid0 :=
  Pipeline.Window.ofSpec (Memref.whole main_v13) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v24) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v35) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v25) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg3) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg4) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v36) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v36) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v37) S5000x1.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S50000 : Shape := ⟨1, ![50000]⟩
abbrev S64x64 : Shape := ⟨2, ![64, 64]⟩
abbrev S1x64 : Shape := ⟨2, ![1, 64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S64x1 : Shape := ⟨2, ![64, 1]⟩
abbrev S50000x1 : Shape := ⟨2, ![50000, 1]⟩

abbrev nBuf : Space → Nat
  | .hbm => 75
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S50000, .i32⟩
  | .hbm, ⟨3, _⟩ => ⟨S64x64, .f32⟩
  | .hbm, ⟨4, _⟩ => ⟨S64x64, .f32⟩
  | .hbm, ⟨5, _⟩ => ⟨S1x64, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x64, .f32⟩
  | .hbm, ⟨19, _⟩ => ⟨S_, .f32⟩
  | .hbm, ⟨20, _⟩ => ⟨S50000x64, .f32⟩
  | .hbm, ⟨21, _⟩ => ⟨S800000x1, .i32⟩
  | .hbm, ⟨22, _⟩ => ⟨S50000x64, .f32⟩
  | .hbm, ⟨23, _⟩ => ⟨S64x64, .f32⟩
  | .hbm, ⟨24, _⟩ => ⟨S50000x64, .f32⟩
  | .hbm, ⟨25, _⟩ => ⟨S64x64, .f32⟩
  | .hbm, ⟨26, _⟩ => ⟨S50000x64, .f32⟩
  | .hbm, ⟨27, _⟩ => ⟨S50000x64, .f32⟩
  | .hbm, ⟨28, _⟩ => ⟨S_, .f32⟩
  | .hbm, ⟨29, _⟩ => ⟨S50000x64, .f32⟩
  | .hbm, ⟨30, _⟩ => ⟨S50000x64, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x64, .f32⟩
  | .hbm, ⟨40, _⟩ => ⟨S_, .f32⟩
  | .hbm, ⟨41, _⟩ => ⟨S50000x64, .f32⟩
  | .hbm, ⟨42, _⟩ => ⟨S800000x1, .i32⟩
  | .hbm, ⟨43, _⟩ => ⟨S50000x64, .f32⟩
  | .hbm, ⟨44, _⟩ => ⟨S64x64, .f32⟩
  | .hbm, ⟨45, _⟩ => ⟨S50000x64, .f32⟩
  | .hbm, ⟨46, _⟩ => ⟨S64x64, .f32⟩
  | .hbm, ⟨47, _⟩ => ⟨S50000x64, .f32⟩
  | .hbm, ⟨48, _⟩ => ⟨S50000x64, .f32⟩
  | .hbm, ⟨49, _⟩ => ⟨S_, .f32⟩
  | .hbm, ⟨50, _⟩ => ⟨S50000x64, .f32⟩
  | .hbm, ⟨51, _⟩ => ⟨S50000x64, .f32⟩
  | .hbm, ⟨52, _⟩ => ⟨S_, .i32⟩
  | .hbm, ⟨53, _⟩ => ⟨S800000, .i32⟩
  | .hbm, ⟨54, _⟩ => ⟨S800000, .i1⟩
  | .hbm, ⟨55, _⟩ => ⟨S_, .i32⟩
  | .hbm, ⟨56, _⟩ => ⟨S800000, .i32⟩
  | .hbm, ⟨57, _⟩ => ⟨S800000, .i32⟩
  | .hbm, ⟨58, _⟩ => ⟨S800000, .i32⟩
  | .hbm, ⟨59, _⟩ => ⟨S800000x1, .i32⟩
  | .hbm, ⟨60, _⟩ => ⟨S800000x64, .f32⟩
  | .hbm, ⟨61, _⟩ => ⟨S_, .f32⟩
  | .hbm, ⟨62, _⟩ => ⟨S50000x64, .f32⟩
  | .hbm, ⟨63, _⟩ => ⟨S800000x1, .i32⟩
  | .hbm, ⟨64, _⟩ => ⟨S50000x64, .f32⟩
  | .hbm, ⟨65, _⟩ => ⟨S64x64, .f32⟩
  | .hbm, ⟨66, _⟩ => ⟨S50000x64, .f32⟩
  | .hbm, ⟨67, _⟩ => ⟨S64x64, .f32⟩
  | .hbm, ⟨68, _⟩ => ⟨S50000x64, .f32⟩
  | .hbm, ⟨69, _⟩ => ⟨S50000x64, .f32⟩
  | .hbm, ⟨70, _⟩ => ⟨S_, .f32⟩
  | .hbm, ⟨71, _⟩ => ⟨S50000x64, .f32⟩
  | .hbm, ⟨72, _⟩ => ⟨S50000x64, .f32⟩
  | .hbm, ⟨73, _⟩ => ⟨S64x1, .f32⟩
  | .hbm, ⟨74, _⟩ => ⟨S50000x1, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_cst : Ref sig .tc := ⟨.hbm, 28, rfl⟩
abbrev main_call0_v0 : Ref sig .tc := ⟨.hbm, 29, rfl⟩
abbrev main_v19 : Ref sig .tc := ⟨.hbm, 30, rfl⟩
abbrev main_c_1 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_call1_cst : Ref sig .tc := ⟨.hbm, 49, rfl⟩
abbrev main_call1_v0 : Ref sig .tc := ⟨.hbm, 50, rfl⟩
abbrev main_v35 : Ref sig .tc := ⟨.hbm, 51, rfl⟩
abbrev main_c_4 : Ref sig .tc := ⟨.hbm, 52, rfl⟩
abbrev main_v36 : Ref sig .tc := ⟨.hbm, 53, rfl⟩
abbrev main_v37 : Ref sig .tc := ⟨.hbm, 54, rfl⟩
abbrev main_c_5 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_6 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_call2_cst : Ref sig .tc := ⟨.hbm, 70, rfl⟩
abbrev main_call2_v0 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  transposes_S64x64_S64x64_1_0 : S64x64.Transposes [1, 0] S64x64
  transposes_S1x64_S64x1_1_0 : S1x64.Transposes [1, 0] S64x1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []
  dot_S50000x64_S64x1_S50000x1_1_0_0_1_n_n_wf : DotDims.WF S50000x64 S64x1 S50000x1 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x1_S50000x1_1_0_0_1_n_n : DotDims S50000x64 S64x1 S50000x1 where
  lhsContracting := [1]
  rhsContracting := [0]
  lhsNonContracting := [0]
  rhsNonContracting := [1]
  lhsBatch := []
  rhsBatch := []
  wf := dot_S50000x64_S64x1_S50000x1_1_0_0_1_n_n_wf

class Facts : Prop extends Facts₀ where

variable [Facts]
-- ==== Proof.KernelRun.lean ====
/-
  The idealized kernel program's run with its result named. The program is seven stretches in a row: host operations,
  the first layer's kernel over its ten blocks of rows, host operations, the second layer's kernel, host operations,
  the third layer's kernel, and the readout kernel. Every weakly fair execution goes through them in order and
  terminates without a fault; at the end every buffer the host can see holds what the fold of the seven stretches from
  the launch memory leaves in it. Read at the result buffer that names the scores; read at an argument it is the
  argument as launched.
-/
import proofs.«138396_j71485435674712_2_alg».proof.Proof.Gen.KernelIdeal.Frame

set_option maxRecDepth 16384

noncomputable section

namespace Cert.GConv.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program terminates without a fault; the scores' buffer ends at the fold's
    contents there, and the six arguments end as launched. -/
theorem run_main : θ_run defs (onTc (τ := τ) (main (F := F))) ⟨m, fun _ => 0, ρ⟩ (fun r => ∀ c : Dev nD,
      r.2.mem ((c.tc : Thread nD τ).loc main_v37) = W7 m ρ c (Proc.devRef .tc main_v37)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v37 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.GConv.KernelRun

end
-- ==== Proof.LibMatmulNT.lean ====
/-
  A matrix product with both operands contracted along their second axis, read at an entry: for an `[n, K]` matrix
  and an `[m, K]` matrix (dimension numbers: contracting axes [1] and [1], non-contracting axes [0] and [0], no batch
  axes) accumulated into zero, entry `(p, c)` of the `[n, m]` result is the sum over `k` of
  `lhs (p, k) * rhs (c, k)`, at the exact values. The dimension numbers enter only through four facts about where the
  operand indices come from: each operand's row from the result's row, resp. column, and each operand's column from
  the contraction position.
-/
import Idealize.ShloMosaic.Lib.ValueIdx
import Idealize.ShloMosaic.PureOps.Ideal.Laws

noncomputable section

namespace Cert.PlainDotNT

open Idealize.ShloMosaic Idealize.ShloMosaic.ValueIdx

/-- Rows against rows: for an `[n, K]` matrix and an `[m, K]` matrix, both contracted along their second axis,
    accumulated into zero, entry `(p, c)` is `∑ k, lhs (p, k) * rhs (c, k)`. The dimension numbers enter only through
    four facts about where the operand indices come from. -/
theorem matmul_rows_rows_zero_apply {n K m : ℕ} {φ₁ φ₂ : FTy}
    (D : DotDims ⟨2, ![n, K]⟩ ⟨2, ![m, K]⟩ ⟨2, ![n, m]⟩) (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (i 1).val)
    (hr1 : ∀ i q, (D.rhsIdx i q 1).val = (q ⟨0, by omega⟩).val)
    (lhs : FVec Ideal ⟨2, ![n, K]⟩ φ₁) (rhs : FVec Ideal ⟨2, ![m, K]⟩ φ₂) (p : Fin n) (c : Fin m) :
    matmul D prec lhs rhs (constant ⟨2, ![n, m]⟩ .f32 0x00000000#32) (ix2 p c)
      = ∑ k : Fin K, lhs (ix2 p k) * rhs (ix2 c k) := by
  show FloatOps.matmul D prec lhs rhs (constant ⟨2, ![n, m]⟩ .f32 0x00000000#32) (ix2 p c) = _
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 c k := funext fun a => Fin.ext (by
    match a with
    | ⟨0, _⟩ => exact hr0 _ _
    | ⟨1, _⟩ => exact (hr1 _ _).trans hk)
  rw [el, er]

end Cert.PlainDotNT

end
-- ==== Proof.LibColumns.lean ====
/-
  Column vectors read at an index: a vector of `a` entries viewed as an `a × 1` column, a column
  broadcast along its rows to an `a × b` matrix, a `1 × 1` matrix broadcast to every entry of an
  `a × b` matrix; and a reduction along the rows of an `a × b` matrix read as a sum, or as a running
  maximum, over the row's entries.
-/
import Idealize.ShloMosaic.Lib.Pipeline.Value
import Idealize.ShloMosaic.Lib.ValueIdx
import Idealize.ShloMosaic.PureOps.Ideal.Laws

noncomputable section

namespace Cert.Columns

open Idealize.ShloMosaic Idealize.ShloMosaic.ValueIdx

variable {α : Type}

/-- An `[a]` vector cast to an `[a, 1]` column reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, q)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A `[1, 1]` matrix broadcast to `[a, b]` reads its one entry everywhere. -/
theorem broadcastTo_11_ab_apply {a b : ℕ} (v : (⟨2, ![1, 1]⟩ : Shape).Idx → α) (h : (⟨2, ![1, 1]⟩ : Shape).Broadcasts ⟨2, ![a, b]⟩)
    (p : Fin a) (q : Fin b) : broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

/-- The index of an `[a, b]` matrix over row `p` at position `k` of the reduced axis is `(p, k)`. -/
theorem lift_row {a b : ℕ} (h : Shape.Reduces ⟨2, ![a, b]⟩ [1] ⟨1, ![a]⟩) (p : Fin a) (k : Fin b) :
    h.lift (ix1 p) k = ix2 p k :=
  funext fun ax => Fin.ext (by match ax with | ⟨0, _⟩ => rfl | ⟨1, _⟩ => rfl)

end Cert.Columns

end
-- ==== Proof.LibRowBroadcast.lean ====
/-
  A `1 × b` row spread over the rows of an `a × b` matrix read at an entry: entry `(p, q)` of the spread matrix is
  entry `(0, q)` of the row.
-/
import Idealize.ShloMosaic.Lib.Pipeline.Value
import Idealize.ShloMosaic.Lib.ValueIdx

noncomputable section

namespace Cert.RowBroadcast

open Idealize.ShloMosaic Idealize.ShloMosaic.ValueIdx

/-- A `[1, b]` row broadcast to `[a, b]` reads, at `(p, q)`, the row at `q`: the unit axis is read at 0, the other
    axis at its own coordinate. -/
theorem broadcastTo_1b_ab_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

end Cert.RowBroadcast

end
-- ==== Proof.Payloads.lean ====
/-
  The kernels' arithmetic at an entry. Each of the three layer kernels loads a block of 5000 rows of the aggregate and
  of the features and the two weight matrices whole, and stores, at entry `(p, q)` of the block, the larger of 0 and
  `∑ k, agg (p, k) * W_rel (q, k) + ∑ k, x (p, k) * W_root (q, k)`: the narrowing to the short float format is the
  identity on exact values, and each matrix unit product into a zero accumulator is the plain sum over the contracted
  axis, which is the second axis of both operands. The readout kernel multiplies a block of rows entry by entry with
  the probing row spread over the rows and sums each row: row `p` of its column is `∑ k, x (p, k) * e (0, k)`.
-/
import proofs.«138396_j71485435674712_2_alg».proof.Proof.Gen.KernelIdeal.Skeleton
import proofs.«138396_j71485435674712_2_alg».proof.Proof.LibMatmulNT
import proofs.«138396_j71485435674712_2_alg».proof.Proof.LibColumns
import proofs.«138396_j71485435674712_2_alg».proof.Proof.LibRowBroadcast
import Idealize.ShloMosaic.Lib.Pipeline.Value
import Idealize.ShloMosaic.Lib.ValueIdx
import Idealize.ShloMosaic.PureOps.Ideal.Laws

noncomputable section

namespace Cert.GConv.Payloads

open Idealize.ShloMosaic Idealize.ShloMosaic.ValueIdx Cert.KernelIdeal Cert.KernelIdeal.Gen

/-- The dimension numbers of the kernels' products: one contracted axis of 64 entries. -/
theorem dot_rank : dot_S5000x64_S64x64_S5000x64_1_1_0_0_n_n.contr.rank = 1 := rfl
theorem dot_size : dot_S5000x64_S64x64_S5000x64_1_1_0_0_n_n.contr.size ⟨0, by decide⟩ = 64 := rfl

/-- The left operand's row is the result's row. -/
theorem lhs_row (i : S5000x64.Idx) (q : dot_S5000x64_S64x64_S5000x64_1_1_0_0_n_n.contr.Idx) :
    (dot_S5000x64_S64x64_S5000x64_1_1_0_0_n_n.lhsIdx i q 0).val = (i 0).val := by
  unfold DotDims.lhsIdx
  rw [dif_neg (show ¬(0 : Fin S5000x64.rank) ∈ dot_S5000x64_S64x64_S5000x64_1_1_0_0_n_n.lhsBatch by decide), dif_pos (show (0 : Fin S5000x64.rank) ∈ dot_S5000x64_S64x64_S5000x64_1_1_0_0_n_n.lhsNonContracting by decide)]
  rfl
/-- The left operand's column is the contraction position. -/
theorem lhs_col (i : S5000x64.Idx) (q : dot_S5000x64_S64x64_S5000x64_1_1_0_0_n_n.contr.Idx) :
    (dot_S5000x64_S64x64_S5000x64_1_1_0_0_n_n.lhsIdx i q 1).val = (q ⟨0, by decide⟩).val :=
  dot_S5000x64_S64x64_S5000x64_1_1_0_0_n_n.lhsIdx_val_of_single rfl i q
/-- The right operand's row is the result's column. -/
theorem rhs_row (i : S5000x64.Idx) (q : dot_S5000x64_S64x64_S5000x64_1_1_0_0_n_n.contr.Idx) :
    (dot_S5000x64_S64x64_S5000x64_1_1_0_0_n_n.rhsIdx i q 0).val = (i 1).val := by
  unfold DotDims.rhsIdx
  rw [dif_neg (show ¬(0 : Fin S64x64.rank) ∈ dot_S5000x64_S64x64_S5000x64_1_1_0_0_n_n.rhsBatch by decide), dif_pos (show (0 : Fin S64x64.rank) ∈ dot_S5000x64_S64x64_S5000x64_1_1_0_0_n_n.rhsNonContracting by decide)]
  rfl
/-- The right operand's column is the contraction position. -/
theorem rhs_col (i : S5000x64.Idx) (q : dot_S5000x64_S64x64_S5000x64_1_1_0_0_n_n.contr.Idx) :
    (dot_S5000x64_S64x64_S5000x64_1_1_0_0_n_n.rhsIdx i q 1).val = (q ⟨0, by decide⟩).val :=
  dot_S5000x64_S64x64_S5000x64_1_1_0_0_n_n.rhsIdx_val_of_single rfl i q

/-- A block of rows against the rows of a weight matrix, into a zero accumulator: entry `(p, q)` is the sum over
    `k` of `lhs (p, k) * rhs (q, k)`. -/
theorem product_apply (lhs : FVec Ideal S5000x64 .bf16) (rhs : FVec Ideal S64x64 .bf16) (p : Fin 5000) (q : Fin 64) :
    matmul dot_S5000x64_S64x64_S5000x64_1_1_0_0_n_n none lhs rhs (constant S5000x64 .f32 0x00000000#32) (ix2 p q)
      = ∑ k : Fin 64, lhs (ix2 p k) * rhs (ix2 q k) :=
  Cert.PlainDotNT.matmul_rows_rows_zero_apply dot_S5000x64_S64x64_S5000x64_1_1_0_0_n_n none dot_rank dot_size
    lhs_row lhs_col rhs_row rhs_col lhs rhs p q

/-- The value all three layer kernels store, at an entry. -/
def layerEntry (x0 x1 : Vec Ideal S5000x64 .f32) (x2 x3 : Vec Ideal S64x64 .f32) (p : Fin 5000) (q : Fin 64) : EReal :=
  max ((∑ k : Fin 64, x0 (ix2 p k) * x2 (ix2 q k)) + ∑ k : Fin 64, x1 (ix2 p k) * x3 (ix2 q k)) 0

theorem zero_word : Scalar.ofBits (F := Ideal) .f32 0x00000000#32 = (0 : EReal) := Ideal.ofBits_zero_f32

/-- The first layer kernel's stored value at entry `(p, q)`. -/
theorem pay0_apply (x0 x1 : Vec Ideal S5000x64 .f32) (x2 x3 : Vec Ideal S64x64 .f32) (p : Fin 5000) (q : Fin 64) :
    k0_pay1 (F := Ideal) x0 x1 x2 x3 (ix2 p q) = layerEntry x0 x1 x2 x3 p q := by
  unfold k0_pay1 layerEntry
  rw [shapeCast_self]
  show max (_ + _) (Scalar.ofBits (F := Ideal) .f32 0x00000000#32) = _
  rw [zero_word]
  refine congrArg₂ max (congrArg₂ (· + ·) ?_ ?_) rfl
  · exact product_apply _ _ p q
  · exact product_apply _ _ p q

/-- The second layer kernel's stored value at entry `(p, q)`. -/
theorem pay1_apply (x0 x1 : Vec Ideal S5000x64 .f32) (x2 x3 : Vec Ideal S64x64 .f32) (p : Fin 5000) (q : Fin 64) :
    k1_pay1 (F := Ideal) x0 x1 x2 x3 (ix2 p q) = layerEntry x0 x1 x2 x3 p q := by
  unfold k1_pay1 layerEntry
  rw [shapeCast_self, shapeCast_self]
  show max (_ + _) (Scalar.ofBits (F := Ideal) .f32 0x00000000#32) = _
  rw [zero_word]
  refine congrArg₂ max (congrArg₂ (· + ·) ?_ ?_) rfl
  · exact product_apply _ _ p q
  · exact product_apply _ _ p q

/-- The third layer kernel's stored value at entry `(p, q)`. -/
theorem pay2_apply (x0 x1 : Vec Ideal S5000x64 .f32) (x2 x3 : Vec Ideal S64x64 .f32) (p : Fin 5000) (q : Fin 64) :
    k2_pay1 (F := Ideal) x0 x1 x2 x3 (ix2 p q) = layerEntry x0 x1 x2 x3 p q := by
  unfold k2_pay1 layerEntry
  rw [shapeCast_self, shapeCast_self]
  show max (_ + _) (Scalar.ofBits (F := Ideal) .f32 0x00000000#32) = _
  rw [zero_word]
  refine congrArg₂ max (congrArg₂ (· + ·) ?_ ?_) rfl
  · exact product_apply _ _ p q
  · exact product_apply _ _ p q

/-- The readout kernel's stored value at row `p` of its column. -/
theorem pay3_apply (x0 : Vec Ideal S5000x64 .f32) (x1 : Vec Ideal S1x64 .f32) (p : Fin 5000) (u : Fin 1) :
    k3_pay1 (F := Ideal) x0 x1 (ix2 p u) = ∑ k : Fin 64, x0 (ix2 p k) * x1 (ix2 (0 : Fin 1) k) := by
  unfold k3_pay1
  rw [shapeCast_self]
  refine (Cert.Columns.shapeCast_a_a1_apply _ shapeCasts_S5000_S5000x1 p u).trans ?_
  refine (Ideal.multiReduction_add_single _ 0x00000000#32 reduces_S5000x64_S5000 (.inl rfl) rfl (ix1 p)).trans ?_
  refine Finset.sum_congr rfl fun k _ => ?_
  rw [Cert.Columns.lift_row reduces_S5000x64_S5000 p k]
  show x0 (ix2 p k) * broadcastTo S5000x64 x1 broadcasts_S1x64_S5000x64 (ix2 p k) = _
  rw [Cert.RowBroadcast.broadcastTo_1b_ab_apply x1 broadcasts_S1x64_S5000x64 p k]

end Cert.GConv.Payloads

end
-- ==== Proof.Spec.lean ====
/-
  What both programs compute, as one function of the argument arrays.

  A graph-convolution layer sends node features `x` (50000 nodes, 64 features) and their aggregate `a` (for each node
  the sum of the features of the sources of its incoming edges) to `max (a · W_rel^T + x · W_root^T) 0`: entry `(p, q)`
  is the larger of 0 and `∑ k, a (p, k) * W_rel (q, k) + ∑ k, x (p, k) * W_root (q, k)`. Three such layers follow one
  another, each aggregating the previous layer's result over the same edges, and the result is probed by a row `e`:
  entry `p` of the output is `∑ k, x₃ (p, k) * e (0, k)`. The aggregation is a parameter `A` here: both programs
  compute it by the same host operations, which are never opened.
-/
import Idealize.ShloMosaic.PureOps.Ideal
import Idealize.ShloMosaic.Lib.ValueIdx

noncomputable section

namespace Cert.GConv

open Idealize.ShloMosaic Idealize.ShloMosaic.ValueIdx

/-- Node features: 50000 nodes, 64 features each. -/
abbrev Nodes : Shape := ⟨2, ![50000, 64]⟩
/-- A layer's weight matrix, rows indexed by the output feature. -/
abbrev Weights : Shape := ⟨2, ![64, 64]⟩
/-- The probing row. -/
abbrev Probe : Shape := ⟨2, ![1, 64]⟩
/-- One score per node, as a column. -/
abbrev Scores : Shape := ⟨2, ![50000, 1]⟩

/-- Entry `(p, q)` of a layer's result: both products contract the operands' second axes. -/
def layerAt (a x : Nodes.Idx → EReal) (wr wo : Weights.Idx → EReal) (p : Fin 50000) (q : Fin 64) : EReal :=
  max ((∑ k : Fin 64, a (ix2 p k) * wr (ix2 q k)) + ∑ k : Fin 64, x (ix2 p k) * wo (ix2 q k)) 0

/-- A layer's result as an array. -/
def layer (a x : Nodes.Idx → EReal) (wr wo : Weights.Idx → EReal) : Nodes.Idx → EReal :=
  fun i => layerAt a x wr wo (i 0) (i 1)

theorem layer_apply (a x : Nodes.Idx → EReal) (wr wo : Weights.Idx → EReal) (p : Fin 50000) (q : Fin 64) :
    layer a x wr wo (ix2 p q) = layerAt a x wr wo p q := rfl

/-- Node `p`'s score: its features against the probing row. -/
def readoutAt (x : Nodes.Idx → EReal) (e : Probe.Idx → EReal) (p : Fin 50000) : EReal :=
  ∑ k : Fin 64, x (ix2 p k) * e (ix2 (0 : Fin 1) k)

/-- The scores as a column. -/
def readout (x : Nodes.Idx → EReal) (e : Probe.Idx → EReal) : Scores.Idx → EReal :=
  fun i => readoutAt x e (i 0)

theorem readout_apply (x : Nodes.Idx → EReal) (e : Probe.Idx → EReal) (p : Fin 50000) (u : Fin 1) :
    readout x e (ix2 p u) = readoutAt x e p := rfl

/-- One round: aggregate, then the layer. -/
def step (A : (Nodes.Idx → EReal) → (Nodes.Idx → EReal)) (wr wo : Weights.Idx → EReal) (x : Nodes.Idx → EReal) :
    Nodes.Idx → EReal :=
  layer (A x) x wr wo

/-- The whole network: three rounds, then the scores. -/
def net (A : (Nodes.Idx → EReal) → (Nodes.Idx → EReal)) (x : Nodes.Idx → EReal) (wr wo : Weights.Idx → EReal)
    (e : Probe.Idx → EReal) : Scores.Idx → EReal :=
  readout (step A wr wo (step A wr wo (step A wr wo x))) e

end Cert.GConv

end
-- ==== Proof.Blocks.lean ====
/-
  A block of rows as a restriction of the whole array. The layer kernels work on blocks of 5000 consecutive rows:
  at block number `T` the aggregate's and the features' blocks hold rows `T * 5000 + p` of their arrays, the weight
  matrices are whole, and entry `(p, q)` of the stored block is entry `(T * 5000 + p, q)` of the layer's result on
  the whole arrays — a row of the result depends on the same row of the operands only. Likewise for the readout: row
  `p` of the stored column block is the score of node `T * 5000 + p`.
-/
import proofs.«138396_j71485435674712_2_alg».proof.Proof.Payloads
import proofs.«138396_j71485435674712_2_alg».proof.Proof.Spec

noncomputable section

namespace Cert.GConv.Blocks

open Idealize.ShloMosaic Idealize.ShloMosaic.ValueIdx Cert.KernelIdeal Cert.GConv Cert.GConv.Payloads

/-- A stored layer block, read at `j`, is the layer's whole-array result at the array index `i` that `j` sits at:
    row `T * 5000 + j 0`, the same column. -/
theorem layer_block (A X : Nodes.Idx → EReal) (W3 W4 : Weights.Idx → EReal)
    (x0 x1 : Vec Ideal S5000x64 .f32) (x2 x3 : Vec Ideal S64x64 .f32) (v : S5000x64.Idx → EReal)
    (hv : ∀ (p : Fin 5000) (q : Fin 64), v (ix2 p q) = layerEntry x0 x1 x2 x3 p q) (T : ℕ)
    (h0 : ∀ (y : S5000x64.Idx) (i : Nodes.Idx), (i 0).val = T * 5000 + (y 0).val → (i 1).val = (y 1).val → x0 y = A i)
    (h1 : ∀ (y : S5000x64.Idx) (i : Nodes.Idx), (i 0).val = T * 5000 + (y 0).val → (i 1).val = (y 1).val → x1 y = X i)
    (h2 : ∀ (y : S64x64.Idx) (i : Weights.Idx), (i 0).val = (y 0).val → (i 1).val = (y 1).val → x2 y = W3 i)
    (h3 : ∀ (y : S64x64.Idx) (i : Weights.Idx), (i 0).val = (y 0).val → (i 1).val = (y 1).val → x3 y = W4 i)
    (j : S5000x64.Idx) (i : Nodes.Idx) (hi0 : (i 0).val = T * 5000 + (j 0).val) (hi1 : (i 1).val = (j 1).val) :
    v j = layer A X W3 W4 i := by
  obtain ⟨p, q, rfl⟩ : ∃ (p : Fin 5000) (q : Fin 64), j = ix2 p q := ⟨j 0, j 1, eq_ix2 j⟩
  obtain ⟨P, Q, rfl⟩ : ∃ (P : Fin 50000) (Q : Fin 64), i = ix2 P Q := ⟨i 0, i 1, eq_ix2 i⟩
  have hP : P.val = T * 5000 + p.val := hi0
  have hQ : Q = q := Fin.ext hi1
  subst hQ
  rw [hv, layer_apply]
  unfold layerEntry layerAt
  refine congrArg₂ max (congrArg₂ (· + ·) ?_ ?_) rfl
  · refine Finset.sum_congr rfl fun k _ => ?_
    rw [h0 (ix2 p k) (ix2 P k) hP rfl, h2 (ix2 Q k) (ix2 Q k) rfl rfl]
  · refine Finset.sum_congr rfl fun k _ => ?_
    rw [h1 (ix2 p k) (ix2 P k) hP rfl, h3 (ix2 Q k) (ix2 Q k) rfl rfl]

/-- A stored block of scores, read at `j`, is the whole-array score at the array index `i` that `j` sits at. -/
theorem readout_block (X : Nodes.Idx → EReal) (E : Probe.Idx → EReal)
    (x0 : Vec Ideal S5000x64 .f32) (x1 : Vec Ideal S1x64 .f32) (v : S5000x1.Idx → EReal)
    (hv : ∀ (p : Fin 5000) (u : Fin 1), v (ix2 p u) = ∑ k : Fin 64, x0 (ix2 p k) * x1 (ix2 (0 : Fin 1) k)) (T : ℕ)
    (h0 : ∀ (y : S5000x64.Idx) (i : Nodes.Idx), (i 0).val = T * 5000 + (y 0).val → (i 1).val = (y 1).val → x0 y = X i)
    (h1 : ∀ (y : S1x64.Idx) (i : Probe.Idx), (i 0).val = (y 0).val → (i 1).val = (y 1).val → x1 y = E i)
    (j : S5000x1.Idx) (i : Scores.Idx) (hi0 : (i 0).val = T * 5000 + (j 0).val) :
    v j = readout X E i := by
  obtain ⟨p, u, rfl⟩ : ∃ (p : Fin 5000) (u : Fin 1), j = ix2 p u := ⟨j 0, j 1, eq_ix2 j⟩
  obtain ⟨P, U, rfl⟩ : ∃ (P : Fin 50000) (U : Fin 1), i = ix2 P U := ⟨i 0, i 1, eq_ix2 i⟩
  have hP : P.val = T * 5000 + p.val := hi0
  rw [hv, readout_apply]
  unfold readoutAt
  refine Finset.sum_congr rfl fun k _ => ?_
  rw [h0 (ix2 p k) (ix2 P k) hP rfl, h1 (ix2 (0 : Fin 1) k) (ix2 (0 : Fin 1) k) rfl rfl]

end Cert.GConv.Blocks

end
-- ==== Proof.Region0.lean ====
/-
  Layer kernel number 1 over its ten blocks of rows, from the contents `V` its region is entered with. Grid point
  `t` fetches rows `t * 5000 … t * 5000 + 4999` of the aggregate and of the features and both weight matrices whole,
  and writes back rows `t * 5000 …` of the output. The ten blocks tile the 50000 rows, and each written block is the
  restriction of one whole-array function — the layer of the aggregate, the features and the weights as the region
  finds them —, so after the ten points the output array holds that function.
-/
import proofs.«138396_j71485435674712_2_alg».proof.Proof.Gen.KernelIdeal.Frame
import proofs.«138396_j71485435674712_2_alg».proof.Proof.Blocks
import Idealize.ShloMosaic.Lib.Pipeline.Value

set_option maxRecDepth 16384

noncomputable section

namespace Cert.GConv.Region0

open Cert.KernelIdeal Cert.KernelIdeal.Gen Idealize.ShloMosaic Idealize.ShloMosaic.TcCoe Idealize.SL.Sem
open Idealize.ShloMosaic.ValueIdx Cert.GConv
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- Where each window's block sits at grid point `t`, decided over the ten points: the aggregate's, the features' and
    the output's blocks are block row `t`, the weight matrices are whole. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- What point `t` writes back is block `t` of the layer's result on the arrays as the region finds them. -/
theorem flushed_eq (c : Dev nD) (t : Fin cfg0.N) :
    (dat0 V c).flushed 4 t = ((cfg0.win 4).blk t).view.read (Elt Ideal)
      (layer (V c main_v13) (V c main_arg0) (V c main_arg3) (V c main_arg4)) := by
  show (cfg0.win 4).cut (grid0.coords t) ((dat0 V c).after 4 t) = _
  rw [after0_4]
  unfold out0_4
  rw [View.canon_unit_zero origin]
  simp only [View.ld_unit_zero (S := S5000x64) origin, View.ld_unit_zero (S := S64x64) origin]
  obtain ⟨e0, e1, e2, e3, e4, e5, e6, e7, e8, e9⟩ := idx_facts t
  funext j
  show k0_pay1 (F := Ideal) (iblk0 V c 0 t) (iblk0 V c 1 t) (iblk0 V c 2 t) (iblk0 V c 3 t) j
    = layer (V c main_v13) (V c main_arg0) (V c main_arg3) (V c main_arg4) (((cfg0.win 4).blk t).view.emb j)
  refine Blocks.layer_block (V c main_v13) (V c main_arg0) (V c main_arg3) (V c main_arg4)
    (iblk0 V c 0 t) (iblk0 V c 1 t) (iblk0 V c 2 t) (iblk0 V c 3 t)
    (k0_pay1 (F := Ideal) (iblk0 V c 0 t) (iblk0 V c 1 t) (iblk0 V c 2 t) (iblk0 V c 3 t))
    (fun p q => Payloads.pay0_apply (iblk0 V c 0 t) (iblk0 V c 1 t) (iblk0 V c 2 t) (iblk0 V c 3 t) p q)
    t.val ?_ ?_ ?_ ?_ j (((cfg0.win 4).blk t).view.emb j) ?_ ?_
  · intro y i hi0 hi1
    show V c main_v13 (((cfg0.win 0).blk t).view.emb y) = V c main_v13 i
    refine congrArg (V c main_v13) (funext fun a => Fin.ext ?_)
    match a with
    | ⟨0, _⟩ => show win0_0.index t (0 : Fin 2) * 5000 + 1 * (y 0).val = (i 0).val; omega
    | ⟨1, _⟩ => show win0_0.index t (1 : Fin 2) * 64 + 1 * (y 1).val = (i 1).val; omega
  · intro y i hi0 hi1
    show V c main_arg0 (((cfg0.win 1).blk t).view.emb y) = V c main_arg0 i
    refine congrArg (V c main_arg0) (funext fun a => Fin.ext ?_)
    match a with
    | ⟨0, _⟩ => show win0_1.index t (0 : Fin 2) * 5000 + 1 * (y 0).val = (i 0).val; omega
    | ⟨1, _⟩ => show win0_1.index t (1 : Fin 2) * 64 + 1 * (y 1).val = (i 1).val; omega
  · intro y i hi0 hi1
    show V c main_arg3 (((cfg0.win 2).blk t).view.emb y) = V c main_arg3 i
    refine congrArg (V c main_arg3) (funext fun a => Fin.ext ?_)
    match a with
    | ⟨0, _⟩ => show win0_2.index t (0 : Fin 2) * 64 + 1 * (y 0).val = (i 0).val; omega
    | ⟨1, _⟩ => show win0_2.index t (1 : Fin 2) * 64 + 1 * (y 1).val = (i 1).val; omega
  · intro y i hi0 hi1
    show V c main_arg4 (((cfg0.win 3).blk t).view.emb y) = V c main_arg4 i
    refine congrArg (V c main_arg4) (funext fun a => Fin.ext ?_)
    match a with
    | ⟨0, _⟩ => show win0_3.index t (0 : Fin 2) * 64 + 1 * (y 0).val = (i 0).val; omega
    | ⟨1, _⟩ => show win0_3.index t (1 : Fin 2) * 64 + 1 * (y 1).val = (i 1).val; omega
  · show win0_4.index t (0 : Fin 2) * 5000 + 1 * (j 0).val = t.val * 5000 + (j 0).val; omega
  · show win0_4.index t (1 : Fin 2) * 64 + 1 * (j 1).val = (j 1).val; omega

/-- An index of the output array is in point `t`'s block iff each coordinate is in the block's range on its axis. -/
theorem mem_blk (t : Fin cfg0.N) (i : S50000x64.Idx) :
    i ∈ ((cfg0.win 4).blk t).view.set ↔ ∀ a : Fin 2, win0_4.index t a * S5000x64.size a ≤ (i a).val ∧ (i a).val < win0_4.index t a * S5000x64.size a + S5000x64.size a := by
  show i ∈ ((View.whole main_v14).slice (win0_4.rect t)).set ↔ _
  rw [View.set_slice_whole, Rect.mem_set_unit]
  exact Iff.rfl

/-- Every row of the output is in the block of the point `row / 5000`. -/
theorem cover (i : S50000x64.Idx) :
    ∃ t : Fin cfg0.N, (cfg0.win 4).flush t = true ∧ i ∈ ((cfg0.win 4).blk t).view.set := by
  have hi0 : (i 0).val < 50000 := (i 0).isLt
  have hi1 : (i 1).val < 64 := (i 1).isLt
  have hN : grid0.N = 10 := N_0
  have ht : (i 0).val / 5000 < grid0.N := by rw [hN]; omega
  obtain ⟨e0, e1, e2, e3, e4, e5, e6, e7, e8, e9⟩ := idx_facts ⟨(i 0).val / 5000, ht⟩
  have e8' : win0_4.index ⟨(i 0).val / 5000, ht⟩ (0 : Fin 2) = (i 0).val / 5000 := e8
  refine ⟨⟨(i 0).val / 5000, ht⟩, flush0_4 _, ?_⟩
  rw [mem_blk]
  intro a
  match a with
  | ⟨0, _⟩ => show win0_4.index ⟨(i 0).val / 5000, ht⟩ (0 : Fin 2) * 5000 ≤ (i 0).val ∧ (i 0).val < win0_4.index ⟨(i 0).val / 5000, ht⟩ (0 : Fin 2) * 5000 + 5000; omega
  | ⟨1, _⟩ => show win0_4.index ⟨(i 0).val / 5000, ht⟩ (1 : Fin 2) * 64 ≤ (i 1).val ∧ (i 1).val < win0_4.index ⟨(i 0).val / 5000, ht⟩ (1 : Fin 2) * 64 + 64; omega

/-- After the region the output array is the layer's result on the arrays as the region finds them. -/
theorem final (c : Dev nD) : (dat0 V c).arrAt 4 cfg0.N
    = layer (V c main_v13) (V c main_arg0) (V c main_arg3) (V c main_arg4) :=
  (dat0 V c).arrAt_eq_of_cover 4 _ (fun t _ => flushed_eq V c t) cover

end Cert.GConv.Region0

end
-- ==== Proof.Region1.lean ====
/-
  Layer kernel number 2 over its ten blocks of rows, from the contents `V` its region is entered with. Grid point
  `t` fetches rows `t * 5000 … t * 5000 + 4999` of the aggregate and of the features and both weight matrices whole,
  and writes back rows `t * 5000 …` of the output. The ten blocks tile the 50000 rows, and each written block is the
  restriction of one whole-array function — the layer of the aggregate, the features and the weights as the region
  finds them —, so after the ten points the output array holds that function.
-/
import proofs.«138396_j71485435674712_2_alg».proof.Proof.Gen.KernelIdeal.Frame
import proofs.«138396_j71485435674712_2_alg».proof.Proof.Blocks
import Idealize.ShloMosaic.Lib.Pipeline.Value

set_option maxRecDepth 16384

noncomputable section

namespace Cert.GConv.Region1

open Cert.KernelIdeal Cert.KernelIdeal.Gen Idealize.ShloMosaic Idealize.ShloMosaic.TcCoe Idealize.SL.Sem
open Idealize.ShloMosaic.ValueIdx Cert.GConv
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- Where each window's block sits at grid point `t`, decided over the ten points: the aggregate's, the features' and
    the output's blocks are block row `t`, the weight matrices are whole. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point `t` writes back is block `t` of the layer's result on the arrays as the region finds them. -/
theorem flushed_eq (c : Dev nD) (t : Fin cfg1.N) :
    (dat1 V c).flushed 4 t = ((cfg1.win 4).blk t).view.read (Elt Ideal)
      (layer (V c main_v24) (V c main_v14) (V c main_arg3) (V c main_arg4)) := by
  show (cfg1.win 4).cut (grid1.coords t) ((dat1 V c).after 4 t) = _
  rw [after1_4]
  unfold out1_4
  rw [View.canon_unit_zero origin]
  simp only [View.ld_unit_zero (S := S5000x64) origin, View.ld_unit_zero (S := S64x64) origin]
  obtain ⟨e0, e1, e2, e3, e4, e5, e6, e7, e8, e9⟩ := idx_facts t
  funext j
  show k1_pay1 (F := Ideal) (iblk1 V c 0 t) (iblk1 V c 1 t) (iblk1 V c 2 t) (iblk1 V c 3 t) j
    = layer (V c main_v24) (V c main_v14) (V c main_arg3) (V c main_arg4) (((cfg1.win 4).blk t).view.emb j)
  refine Blocks.layer_block (V c main_v24) (V c main_v14) (V c main_arg3) (V c main_arg4)
    (iblk1 V c 0 t) (iblk1 V c 1 t) (iblk1 V c 2 t) (iblk1 V c 3 t)
    (k1_pay1 (F := Ideal) (iblk1 V c 0 t) (iblk1 V c 1 t) (iblk1 V c 2 t) (iblk1 V c 3 t))
    (fun p q => Payloads.pay1_apply (iblk1 V c 0 t) (iblk1 V c 1 t) (iblk1 V c 2 t) (iblk1 V c 3 t) p q)
    t.val ?_ ?_ ?_ ?_ j (((cfg1.win 4).blk t).view.emb j) ?_ ?_
  · intro y i hi0 hi1
    show V c main_v24 (((cfg1.win 0).blk t).view.emb y) = V c main_v24 i
    refine congrArg (V c main_v24) (funext fun a => Fin.ext ?_)
    match a with
    | ⟨0, _⟩ => show win1_0.index t (0 : Fin 2) * 5000 + 1 * (y 0).val = (i 0).val; omega
    | ⟨1, _⟩ => show win1_0.index t (1 : Fin 2) * 64 + 1 * (y 1).val = (i 1).val; omega
  · intro y i hi0 hi1
    show V c main_v14 (((cfg1.win 1).blk t).view.emb y) = V c main_v14 i
    refine congrArg (V c main_v14) (funext fun a => Fin.ext ?_)
    match a with
    | ⟨0, _⟩ => show win1_1.index t (0 : Fin 2) * 5000 + 1 * (y 0).val = (i 0).val; omega
    | ⟨1, _⟩ => show win1_1.index t (1 : Fin 2) * 64 + 1 * (y 1).val = (i 1).val; omega
  · intro y i hi0 hi1
    show V c main_arg3 (((cfg1.win 2).blk t).view.emb y) = V c main_arg3 i
    refine congrArg (V c main_arg3) (funext fun a => Fin.ext ?_)
    match a with
    | ⟨0, _⟩ => show win1_2.index t (0 : Fin 2) * 64 + 1 * (y 0).val = (i 0).val; omega
    | ⟨1, _⟩ => show win1_2.index t (1 : Fin 2) * 64 + 1 * (y 1).val = (i 1).val; omega
  · intro y i hi0 hi1
    show V c main_arg4 (((cfg1.win 3).blk t).view.emb y) = V c main_arg4 i
    refine congrArg (V c main_arg4) (funext fun a => Fin.ext ?_)
    match a with
    | ⟨0, _⟩ => show win1_3.index t (0 : Fin 2) * 64 + 1 * (y 0).val = (i 0).val; omega
    | ⟨1, _⟩ => show win1_3.index t (1 : Fin 2) * 64 + 1 * (y 1).val = (i 1).val; omega
  · show win1_4.index t (0 : Fin 2) * 5000 + 1 * (j 0).val = t.val * 5000 + (j 0).val; omega
  · show win1_4.index t (1 : Fin 2) * 64 + 1 * (j 1).val = (j 1).val; omega

/-- An index of the output array is in point `t`'s block iff each coordinate is in the block's range on its axis. -/
theorem mem_blk (t : Fin cfg1.N) (i : S50000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v25).slice (win1_4.rect t)).set ↔ _
  rw [View.set_slice_whole, Rect.mem_set_unit]
  exact Iff.rfl

/-- Every row of the output is in the block of the point `row / 5000`. -/
theorem cover (i : S50000x64.Idx) :
    ∃ t : Fin cfg1.N, (cfg1.win 4).flush t = true ∧ i ∈ ((cfg1.win 4).blk t).view.set := by
  have hi0 : (i 0).val < 50000 := (i 0).isLt
  have hi1 : (i 1).val < 64 := (i 1).isLt
  have hN : grid1.N = 10 := N_1
  have ht : (i 0).val / 5000 < grid1.N := by rw [hN]; omega
  obtain ⟨e0, e1, e2, e3, e4, e5, e6, e7, e8, e9⟩ := idx_facts ⟨(i 0).val / 5000, ht⟩
  have e8' : win1_4.index ⟨(i 0).val / 5000, ht⟩ (0 : Fin 2) = (i 0).val / 5000 := e8
  refine ⟨⟨(i 0).val / 5000, ht⟩, flush1_4 _, ?_⟩
  rw [mem_blk]
  intro a
  match a with
  | ⟨0, _⟩ => show win1_4.index ⟨(i 0).val / 5000, ht⟩ (0 : Fin 2) * 5000 ≤ (i 0).val ∧ (i 0).val < win1_4.index ⟨(i 0).val / 5000, ht⟩ (0 : Fin 2) * 5000 + 5000; omega
  | ⟨1, _⟩ => show win1_4.index ⟨(i 0).val / 5000, ht⟩ (1 : Fin 2) * 64 ≤ (i 1).val ∧ (i 1).val < win1_4.index ⟨(i 0).val / 5000, ht⟩ (1 : Fin 2) * 64 + 64; omega

/-- After the region the output array is the layer's result on the arrays as the region finds them. -/
theorem final (c : Dev nD) : (dat1 V c).arrAt 4 cfg1.N
    = layer (V c main_v24) (V c main_v14) (V c main_arg3) (V c main_arg4) :=
  (dat1 V c).arrAt_eq_of_cover 4 _ (fun t _ => flushed_eq V c t) cover

end Cert.GConv.Region1

end
-- ==== Proof.Region2.lean ====
/-
  Layer kernel number 3 over its ten blocks of rows, from the contents `V` its region is entered with. Grid point
  `t` fetches rows `t * 5000 … t * 5000 + 4999` of the aggregate and of the features and both weight matrices whole,
  and writes back rows `t * 5000 …` of the output. The ten blocks tile the 50000 rows, and each written block is the
  restriction of one whole-array function — the layer of the aggregate, the features and the weights as the region
  finds them —, so after the ten points the output array holds that function.
-/
import proofs.«138396_j71485435674712_2_alg».proof.Proof.Gen.KernelIdeal.Frame
import proofs.«138396_j71485435674712_2_alg».proof.Proof.Blocks
import Idealize.ShloMosaic.Lib.Pipeline.Value

set_option maxRecDepth 16384

noncomputable section

namespace Cert.GConv.Region2

open Cert.KernelIdeal Cert.KernelIdeal.Gen Idealize.ShloMosaic Idealize.ShloMosaic.TcCoe Idealize.SL.Sem
open Idealize.ShloMosaic.ValueIdx Cert.GConv
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- Where each window's block sits at grid point `t`, decided over the ten points: the aggregate's, the features' and
    the output's blocks are block row `t`, the weight matrices are whole. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- What point `t` writes back is block `t` of the layer's result on the arrays as the region finds them. -/
theorem flushed_eq (c : Dev nD) (t : Fin cfg2.N) :
    (dat2 V c).flushed 4 t = ((cfg2.win 4).blk t).view.read (Elt Ideal)
      (layer (V c main_v35) (V c main_v25) (V c main_arg3) (V c main_arg4)) := by
  show (cfg2.win 4).cut (grid2.coords t) ((dat2 V c).after 4 t) = _
  rw [after2_4]
  unfold out2_4
  rw [View.canon_unit_zero origin]
  simp only [View.ld_unit_zero (S := S5000x64) origin, View.ld_unit_zero (S := S64x64) origin]
  obtain ⟨e0, e1, e2, e3, e4, e5, e6, e7, e8, e9⟩ := idx_facts t
  funext j
  show k2_pay1 (F := Ideal) (iblk2 V c 0 t) (iblk2 V c 1 t) (iblk2 V c 2 t) (iblk2 V c 3 t) j
    = layer (V c main_v35) (V c main_v25) (V c main_arg3) (V c main_arg4) (((cfg2.win 4).blk t).view.emb j)
  refine Blocks.layer_block (V c main_v35) (V c main_v25) (V c main_arg3) (V c main_arg4)
    (iblk2 V c 0 t) (iblk2 V c 1 t) (iblk2 V c 2 t) (iblk2 V c 3 t)
    (k2_pay1 (F := Ideal) (iblk2 V c 0 t) (iblk2 V c 1 t) (iblk2 V c 2 t) (iblk2 V c 3 t))
    (fun p q => Payloads.pay2_apply (iblk2 V c 0 t) (iblk2 V c 1 t) (iblk2 V c 2 t) (iblk2 V c 3 t) p q)
    t.val ?_ ?_ ?_ ?_ j (((cfg2.win 4).blk t).view.emb j) ?_ ?_
  · intro y i hi0 hi1
    show V c main_v35 (((cfg2.win 0).blk t).view.emb y) = V c main_v35 i
    refine congrArg (V c main_v35) (funext fun a => Fin.ext ?_)
    match a with
    | ⟨0, _⟩ => show win2_0.index t (0 : Fin 2) * 5000 + 1 * (y 0).val = (i 0).val; omega
    | ⟨1, _⟩ => show win2_0.index t (1 : Fin 2) * 64 + 1 * (y 1).val = (i 1).val; omega
  · intro y i hi0 hi1
    show V c main_v25 (((cfg2.win 1).blk t).view.emb y) = V c main_v25 i
    refine congrArg (V c main_v25) (funext fun a => Fin.ext ?_)
    match a with
    | ⟨0, _⟩ => show win2_1.index t (0 : Fin 2) * 5000 + 1 * (y 0).val = (i 0).val; omega
    | ⟨1, _⟩ => show win2_1.index t (1 : Fin 2) * 64 + 1 * (y 1).val = (i 1).val; omega
  · intro y i hi0 hi1
    show V c main_arg3 (((cfg2.win 2).blk t).view.emb y) = V c main_arg3 i
    refine congrArg (V c main_arg3) (funext fun a => Fin.ext ?_)
    match a with
    | ⟨0, _⟩ => show win2_2.index t (0 : Fin 2) * 64 + 1 * (y 0).val = (i 0).val; omega
    | ⟨1, _⟩ => show win2_2.index t (1 : Fin 2) * 64 + 1 * (y 1).val = (i 1).val; omega
  · intro y i hi0 hi1
    show V c main_arg4 (((cfg2.win 3).blk t).view.emb y) = V c main_arg4 i
    refine congrArg (V c main_arg4) (funext fun a => Fin.ext ?_)
    match a with
    | ⟨0, _⟩ => show win2_3.index t (0 : Fin 2) * 64 + 1 * (y 0).val = (i 0).val; omega
    | ⟨1, _⟩ => show win2_3.index t (1 : Fin 2) * 64 + 1 * (y 1).val = (i 1).val; omega
  · show win2_4.index t (0 : Fin 2) * 5000 + 1 * (j 0).val = t.val * 5000 + (j 0).val; omega
  · show win2_4.index t (1 : Fin 2) * 64 + 1 * (j 1).val = (j 1).val; omega

/-- An index of the output array is in point `t`'s block iff each coordinate is in the block's range on its axis. -/
theorem mem_blk (t : Fin cfg2.N) (i : S50000x64.Idx) :
    i ∈ ((cfg2.win 4).blk t).view.set ↔ ∀ a : Fin 2, win2_4.index t a * S5000x64.size a ≤ (i a).val ∧ (i a).val < win2_4.index t a * S5000x64.size a + S5000x64.size a := by
  show i ∈ ((View.whole main_v36).slice (win2_4.rect t)).set ↔ _
  rw [View.set_slice_whole, Rect.mem_set_unit]
  exact Iff.rfl

/-- Every row of the output is in the block of the point `row / 5000`. -/
theorem cover (i : S50000x64.Idx) :
    ∃ t : Fin cfg2.N, (cfg2.win 4).flush t = true ∧ i ∈ ((cfg2.win 4).blk t).view.set := by
  have hi0 : (i 0).val < 50000 := (i 0).isLt
  have hi1 : (i 1).val < 64 := (i 1).isLt
  have hN : grid2.N = 10 := N_2
  have ht : (i 0).val / 5000 < grid2.N := by rw [hN]; omega
  obtain ⟨e0, e1, e2, e3, e4, e5, e6, e7, e8, e9⟩ := idx_facts ⟨(i 0).val / 5000, ht⟩
  have e8' : win2_4.index ⟨(i 0).val / 5000, ht⟩ (0 : Fin 2) = (i 0).val / 5000 := e8
  refine ⟨⟨(i 0).val / 5000, ht⟩, flush2_4 _, ?_⟩
  rw [mem_blk]
  intro a
  match a with
  | ⟨0, _⟩ => show win2_4.index ⟨(i 0).val / 5000, ht⟩ (0 : Fin 2) * 5000 ≤ (i 0).val ∧ (i 0).val < win2_4.index ⟨(i 0).val / 5000, ht⟩ (0 : Fin 2) * 5000 + 5000; omega
  | ⟨1, _⟩ => show win2_4.index ⟨(i 0).val / 5000, ht⟩ (1 : Fin 2) * 64 ≤ (i 1).val ∧ (i 1).val < win2_4.index ⟨(i 0).val / 5000, ht⟩ (1 : Fin 2) * 64 + 64; omega

/-- After the region the output array is the layer's result on the arrays as the region finds them. -/
theorem final (c : Dev nD) : (dat2 V c).arrAt 4 cfg2.N
    = layer (V c main_v35) (V c main_v25) (V c main_arg3) (V c main_arg4) :=
  (dat2 V c).arrAt_eq_of_cover 4 _ (fun t _ => flushed_eq V c t) cover

end Cert.GConv.Region2

end
-- ==== Proof.Region3.lean ====
/-
  The readout kernel over its ten blocks of rows, from the contents `V` its region is entered with. Grid point `t`
  fetches rows `t * 5000 … t * 5000 + 4999` of the last layer's features and the probing row whole, and writes back
  rows `t * 5000 …` of the column of scores. The ten blocks tile the 50000 rows and each written block is the
  restriction of the whole column of scores, so after the ten points the output array holds the scores of the features
  and the probing row as the region finds them.
-/
import proofs.«138396_j71485435674712_2_alg».proof.Proof.Gen.KernelIdeal.Frame
import proofs.«138396_j71485435674712_2_alg».proof.Proof.Blocks
import Idealize.ShloMosaic.Lib.Pipeline.Value

set_option maxRecDepth 16384

noncomputable section

namespace Cert.GConv.Region3

open Cert.KernelIdeal Cert.KernelIdeal.Gen Idealize.ShloMosaic Idealize.ShloMosaic.TcCoe Idealize.SL.Sem
open Idealize.ShloMosaic.ValueIdx Cert.GConv
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- Where each window's block sits at grid point `t`, decided over the ten points: the features' and the scores'
    blocks are block row `t`, the probing row is whole. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the scores of the arrays as the region finds them. -/
theorem flushed_eq (c : Dev nD) (t : Fin cfg3.N) :
    (dat3 V c).flushed 2 t = ((cfg3.win 2).blk t).view.read (Elt Ideal)
      (readout (V c main_v36) (V c main_arg5)) := by
  show (cfg3.win 2).cut (grid3.coords t) ((dat3 V c).after 2 t) = _
  rw [after3_2]
  unfold out3_2
  rw [View.canon_unit_zero origin]
  simp only [View.ld_unit_zero (S := S5000x64) origin, View.ld_unit_zero (S := S1x64) origin]
  obtain ⟨e0, e1, e2, e3, e4, e5⟩ := idx_facts t
  funext j
  show k3_pay1 (F := Ideal) (iblk3 V c 0 t) (iblk3 V c 1 t) j
    = readout (V c main_v36) (V c main_arg5) (((cfg3.win 2).blk t).view.emb j)
  refine Blocks.readout_block (V c main_v36) (V c main_arg5) (iblk3 V c 0 t) (iblk3 V c 1 t)
    (k3_pay1 (F := Ideal) (iblk3 V c 0 t) (iblk3 V c 1 t))
    (fun p u => Payloads.pay3_apply (iblk3 V c 0 t) (iblk3 V c 1 t) p u)
    t.val ?_ ?_ j (((cfg3.win 2).blk t).view.emb j) ?_
  · intro y i hi0 hi1
    show V c main_v36 (((cfg3.win 0).blk t).view.emb y) = V c main_v36 i
    refine congrArg (V c main_v36) (funext fun a => Fin.ext ?_)
    match a with
    | ⟨0, _⟩ => show win3_0.index t (0 : Fin 2) * 5000 + 1 * (y 0).val = (i 0).val; omega
    | ⟨1, _⟩ => show win3_0.index t (1 : Fin 2) * 64 + 1 * (y 1).val = (i 1).val; omega
  · intro y i hi0 hi1
    show V c main_arg5 (((cfg3.win 1).blk t).view.emb y) = V c main_arg5 i
    refine congrArg (V c main_arg5) (funext fun a => Fin.ext ?_)
    match a with
    | ⟨0, _⟩ => show win3_1.index t (0 : Fin 2) * 1 + 1 * (y 0).val = (i 0).val; omega
    | ⟨1, _⟩ => show win3_1.index t (1 : Fin 2) * 64 + 1 * (y 1).val = (i 1).val; omega
  · show win3_2.index t (0 : Fin 2) * 5000 + 1 * (j 0).val = t.val * 5000 + (j 0).val; omega

/-- An index of the output array is in point `t`'s block iff each coordinate is in the block's range on its axis. -/
theorem mem_blk (t : Fin cfg3.N) (i : S50000x1.Idx) :
    i ∈ ((cfg3.win 2).blk t).view.set ↔ ∀ a : Fin 2, win3_2.index t a * S5000x1.size a ≤ (i a).val ∧ (i a).val < win3_2.index t a * S5000x1.size a + S5000x1.size a := by
  show i ∈ ((View.whole main_v37).slice (win3_2.rect t)).set ↔ _
  rw [View.set_slice_whole, Rect.mem_set_unit]
  exact Iff.rfl

/-- Every row of the output is in the block of the point `row / 5000`. -/
theorem cover (i : S50000x1.Idx) :
    ∃ t : Fin cfg3.N, (cfg3.win 2).flush t = true ∧ i ∈ ((cfg3.win 2).blk t).view.set := by
  have hi0 : (i 0).val < 50000 := (i 0).isLt
  have hi1 : (i 1).val < 1 := (i 1).isLt
  have hN : grid3.N = 10 := N_3
  have ht : (i 0).val / 5000 < grid3.N := by rw [hN]; omega
  obtain ⟨e0, e1, e2, e3, e4, e5⟩ := idx_facts ⟨(i 0).val / 5000, ht⟩
  have e4' : win3_2.index ⟨(i 0).val / 5000, ht⟩ (0 : Fin 2) = (i 0).val / 5000 := e4
  refine ⟨⟨(i 0).val / 5000, ht⟩, flush3_2 _, ?_⟩
  rw [mem_blk]
  intro a
  match a with
  | ⟨0, _⟩ => show win3_2.index ⟨(i 0).val / 5000, ht⟩ (0 : Fin 2) * 5000 ≤ (i 0).val ∧ (i 0).val < win3_2.index ⟨(i 0).val / 5000, ht⟩ (0 : Fin 2) * 5000 + 5000; omega
  | ⟨1, _⟩ => show win3_2.index ⟨(i 0).val / 5000, ht⟩ (1 : Fin 2) * 1 ≤ (i 1).val ∧ (i 1).val < win3_2.index ⟨(i 0).val / 5000, ht⟩ (1 : Fin 2) * 1 + 1; omega

/-- After the region the output array is the column of scores of the arrays as the region finds them. -/
theorem final (c : Dev nD) : (dat3 V c).arrAt 2 cfg3.N = readout (V c main_v36) (V c main_arg5) :=
  (dat3 V c).arrAt_eq_of_cover 2 _ (fun t _ => flushed_eq V c t) cover

end Cert.GConv.Region3

end
-- ==== Proof.KernelValue.lean ====
/-
  What the idealized kernel program leaves in the scores' buffer, as the network function of its arguments.

  The fold of the program's seven stretches is followed from the launch memory. The first stretch of host operations
  cuts the edge list into sources and destinations and aggregates the argument features; the first layer's region
  then leaves the layer of that aggregate and the features; the second stretch aggregates the first layer's result
  over the same sources and destinations, which no region and no later host operation writes; and so on through the
  third layer; the readout's region leaves the scores of the third layer's result against the probing row. The
  weight matrices and the probing row are arguments that nothing writes, so every region finds them as launched.
-/
import proofs.«138396_j71485435674712_2_alg».proof.Proof.Gen.KernelIdeal.Frame
import proofs.«138396_j71485435674712_2_alg».proof.Proof.Region0
import proofs.«138396_j71485435674712_2_alg».proof.Proof.Region1
import proofs.«138396_j71485435674712_2_alg».proof.Proof.Region2
import proofs.«138396_j71485435674712_2_alg».proof.Proof.Region3
import proofs.«138396_j71485435674712_2_alg».proof.Proof.Spec
import Idealize.ShloMosaic.Lib.StableHlo.Run

set_option maxRecDepth 16384

noncomputable section

namespace Cert.GConv.KernelValue

open Cert.KernelIdeal Cert.KernelIdeal.Gen Idealize.ShloMosaic Idealize.ShloMosaic.TcCoe Idealize.SL.Sem
open Idealize.ShloMosaic.StableHlo Cert.GConv
open Idealize.ShloMosaic.Pipeline (Dat)

/-- The edge sources: row 0 of the edge list, as a vector. -/
def srcOf (ei : (⟨S2x800000, .i32⟩ : BufTy).Contents (Elt Ideal)) : (⟨S800000, .i32⟩ : BufTy).Contents (Elt Ideal) :=
  shapeCast S800000 (extractStridedSlice S1x800000 ![0, 0] ei slices_S2x800000_S1x800000_0_0) shapeCasts_S1x800000_S800000

/-- The edge destinations: row 1 of the edge list, as a vector. -/
def dstOf (ei : (⟨S2x800000, .i32⟩ : BufTy).Contents (Elt Ideal)) : (⟨S800000, .i32⟩ : BufTy).Contents (Elt Ideal) :=
  shapeCast S800000 (extractStridedSlice S1x800000 ![1, 0] ei slices_S2x800000_S1x800000_1_0) shapeCasts_S1x800000_S800000

/-- The host's aggregation of node features `x` from sources `src` to destinations `dst`: a negative source counts
    from the end; the rows at the sources are gathered and scatter-added onto zeros at the destination rows. -/
def aggFrom (src dst : (⟨S800000, .i32⟩ : BufTy).Contents (Elt Ideal)) (x : (⟨S50000x64, .f32⟩ : BufTy).Contents (Elt Ideal)) :
    (⟨S50000x64, .f32⟩ : BufTy).Contents (Elt Ideal) :=
  Host.scatterAdd scatter_S50000x64_S800000x1_S800000x64_1_0_0_1
    (broadcastInDim S50000x64 ![] bcast_S_S50000x64 (constant (F := Ideal) S_ .f32 0x00000000#32))
    (broadcastInDim S800000x1 ![0] bcast_S800000_S800000x1_0 dst)
    (Host.gather gather_S50000x64_S800000x1_S800000x64_1_0_n_n_0_1_164 x
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

/-- The kernel program's aggregation over the edge list `ei`. -/
def agg (ei : (⟨S2x800000, .i32⟩ : BufTy).Contents (Elt Ideal)) (x : (⟨S50000x64, .f32⟩ : BufTy).Contents (Elt Ideal)) :
    (⟨S50000x64, .f32⟩ : BufTy).Contents (Elt Ideal) :=
  aggFrom (srcOf ei) (dstOf ei) x

theorem layer_congr {a a' x x' : Nodes.Idx → EReal} {w w' v v' : Weights.Idx → EReal}
    (ha : a = a') (hx : x = x') (hw : w = w') (hv : v = v') : layer a x w v = layer a' x' w' v' := by
  subst ha hx hw hv; rfl

theorem readout_congr {x x' : Nodes.Idx → EReal} {e e' : Probe.Idx → EReal}
    (hx : x = x') (he : e = e') : readout x e = readout x' e' := by
  subst hx he; rfl

variable (m : (ℓ : Loc nD τ sig) → Buf (Elt Ideal) ℓ) (ρ : Dev nD → PrngReg)

/-! ## After the first stretch of host operations -/

theorem W1_src (c : Dev nD) : W1 m ρ c (Proc.devRef .tc main_v1) = srcOf (m ((c : Thread nD τ).loc main_arg1)) := by
  show StableHlo.after hostOps0 (W0 m ρ c) (Proc.devRef .tc main_v1) = _
  after_results_simp <;> rfl

theorem W1_dst (c : Dev nD) : W1 m ρ c (Proc.devRef .tc main_v3) = dstOf (m ((c : Thread nD τ).loc main_arg1)) := by
  show StableHlo.after hostOps0 (W0 m ρ c) (Proc.devRef .tc main_v3) = _
  after_results_simp <;> rfl

theorem W1_agg (c : Dev nD) : W1 m ρ c (Proc.devRef .tc main_v13) = agg (m ((c : Thread nD τ).loc main_arg1)) (m ((c : Thread nD τ).loc main_arg0)) := by
  show StableHlo.after hostOps0 (W0 m ρ c) (Proc.devRef .tc main_v13) = _
  after_results_simp <;> rfl

theorem W1_arg0 (c : Dev nD) : W1 m ρ c (Proc.devRef .tc main_arg0) = (m ((c : Thread nD τ).loc main_arg0)) := by
  show StableHlo.after hostOps0 (W0 m ρ c) (Proc.devRef .tc main_arg0) = _
  after_results_simp <;> rfl

theorem W1_arg3 (c : Dev nD) : W1 m ρ c (Proc.devRef .tc main_arg3) = (m ((c : Thread nD τ).loc main_arg3)) := by
  show StableHlo.after hostOps0 (W0 m ρ c) (Proc.devRef .tc main_arg3) = _
  after_results_simp <;> rfl

theorem W1_arg4 (c : Dev nD) : W1 m ρ c (Proc.devRef .tc main_arg4) = (m ((c : Thread nD τ).loc main_arg4)) := by
  show StableHlo.after hostOps0 (W0 m ρ c) (Proc.devRef .tc main_arg4) = _
  after_results_simp <;> rfl

theorem W1_arg5 (c : Dev nD) : W1 m ρ c (Proc.devRef .tc main_arg5) = (m ((c : Thread nD τ).loc main_arg5)) := by
  show StableHlo.after hostOps0 (W0 m ρ c) (Proc.devRef .tc main_arg5) = _
  after_results_simp <;> rfl

/-! ## After the first layer's region -/

theorem W2_x (c : Dev nD) : W2 m ρ c (Proc.devRef .tc main_v14) = (step (agg (m ((c : Thread nD τ).loc main_arg1))) (m ((c : Thread nD τ).loc main_arg3)) (m ((c : Thread nD τ).loc main_arg4)) (m ((c : Thread nD τ).loc main_arg0))) :=
  (W2_arr m ρ c 4).trans ((Region0.final (V1 m ρ) c).trans
    (layer_congr (W1_agg m ρ c) (W1_arg0 m ρ c) (W1_arg3 m ρ c) (W1_arg4 m ρ c)))

theorem W2_src (c : Dev nD) : W2 m ρ c (Proc.devRef .tc main_v1) = srcOf (m ((c : Thread nD τ).loc main_arg1)) :=
  (W2_of_ne m ρ c main_v1 (by decide)).trans (W1_src m ρ c)

theorem W2_dst (c : Dev nD) : W2 m ρ c (Proc.devRef .tc main_v3) = dstOf (m ((c : Thread nD τ).loc main_arg1)) :=
  (W2_of_ne m ρ c main_v3 (by decide)).trans (W1_dst m ρ c)

theorem W2_arg3 (c : Dev nD) : W2 m ρ c (Proc.devRef .tc main_arg3) = (m ((c : Thread nD τ).loc main_arg3)) :=
  (W2_arr m ρ c 2).trans (((dat0 (V1 m ρ) c).arrAt_in 2 rfl _).trans ((A_eq0 (V1 m ρ) c 2).trans (W1_arg3 m ρ c)))

theorem W2_arg4 (c : Dev nD) : W2 m ρ c (Proc.devRef .tc main_arg4) = (m ((c : Thread nD τ).loc main_arg4)) :=
  (W2_arr m ρ c 3).trans (((dat0 (V1 m ρ) c).arrAt_in 3 rfl _).trans ((A_eq0 (V1 m ρ) c 3).trans (W1_arg4 m ρ c)))

theorem W2_arg5 (c : Dev nD) : W2 m ρ c (Proc.devRef .tc main_arg5) = (m ((c : Thread nD τ).loc main_arg5)) :=
  (W2_of_ne m ρ c main_arg5 (by decide)).trans (W1_arg5 m ρ c)

/-! ## After the second stretch of host operations -/

theorem W3_agg (c : Dev nD) : W3 m ρ c (Proc.devRef .tc main_v24) = agg (m ((c : Thread nD τ).loc main_arg1)) (step (agg (m ((c : Thread nD τ).loc main_arg1))) (m ((c : Thread nD τ).loc main_arg3)) (m ((c : Thread nD τ).loc main_arg4)) (m ((c : Thread nD τ).loc main_arg0))) := by
  show StableHlo.after hostOps1 (W2 m ρ c) (Proc.devRef .tc main_v24) = _
  after_results_simp
  rw [W2_src m ρ c, W2_dst m ρ c, W2_x m ρ c]
  rfl

theorem W3_x (c : Dev nD) : W3 m ρ c (Proc.devRef .tc main_v14) = (step (agg (m ((c : Thread nD τ).loc main_arg1))) (m ((c : Thread nD τ).loc main_arg3)) (m ((c : Thread nD τ).loc main_arg4)) (m ((c : Thread nD τ).loc main_arg0))) :=
  (show StableHlo.after hostOps1 (W2 m ρ c) (Proc.devRef .tc main_v14) = W2 m ρ c (Proc.devRef .tc main_v14) by
    after_results_simp <;> rfl).trans (W2_x m ρ c)

theorem W3_src (c : Dev nD) : W3 m ρ c (Proc.devRef .tc main_v1) = srcOf (m ((c : Thread nD τ).loc main_arg1)) :=
  (show StableHlo.after hostOps1 (W2 m ρ c) (Proc.devRef .tc main_v1) = W2 m ρ c (Proc.devRef .tc main_v1) by
    after_results_simp <;> rfl).trans (W2_src m ρ c)

theorem W3_dst (c : Dev nD) : W3 m ρ c (Proc.devRef .tc main_v3) = dstOf (m ((c : Thread nD τ).loc main_arg1)) :=
  (show StableHlo.after hostOps1 (W2 m ρ c) (Proc.devRef .tc main_v3) = W2 m ρ c (Proc.devRef .tc main_v3) by
    after_results_simp <;> rfl).trans (W2_dst m ρ c)

theorem W3_arg3 (c : Dev nD) : W3 m ρ c (Proc.devRef .tc main_arg3) = (m ((c : Thread nD τ).loc main_arg3)) :=
  (show StableHlo.after hostOps1 (W2 m ρ c) (Proc.devRef .tc main_arg3) = W2 m ρ c (Proc.devRef .tc main_arg3) by
    after_results_simp <;> rfl).trans (W2_arg3 m ρ c)

theorem W3_arg4 (c : Dev nD) : W3 m ρ c (Proc.devRef .tc main_arg4) = (m ((c : Thread nD τ).loc main_arg4)) :=
  (show StableHlo.after hostOps1 (W2 m ρ c) (Proc.devRef .tc main_arg4) = W2 m ρ c (Proc.devRef .tc main_arg4) by
    after_results_simp <;> rfl).trans (W2_arg4 m ρ c)

theorem W3_arg5 (c : Dev nD) : W3 m ρ c (Proc.devRef .tc main_arg5) = (m ((c : Thread nD τ).loc main_arg5)) :=
  (show StableHlo.after hostOps1 (W2 m ρ c) (Proc.devRef .tc main_arg5) = W2 m ρ c (Proc.devRef .tc main_arg5) by
    after_results_simp <;> rfl).trans (W2_arg5 m ρ c)

/-! ## After the second layer's region -/

theorem W4_x (c : Dev nD) : W4 m ρ c (Proc.devRef .tc main_v25) = (step (agg (m ((c : Thread nD τ).loc main_arg1))) (m ((c : Thread nD τ).loc main_arg3)) (m ((c : Thread nD τ).loc main_arg4)) (step (agg (m ((c : Thread nD τ).loc main_arg1))) (m ((c : Thread nD τ).loc main_arg3)) (m ((c : Thread nD τ).loc main_arg4)) (m ((c : Thread nD τ).loc main_arg0)))) :=
  (W4_arr m ρ c 4).trans ((Region1.final (V3 m ρ) c).trans
    (layer_congr (W3_agg m ρ c) (W3_x m ρ c) (W3_arg3 m ρ c) (W3_arg4 m ρ c)))

theorem W4_src (c : Dev nD) : W4 m ρ c (Proc.devRef .tc main_v1) = srcOf (m ((c : Thread nD τ).loc main_arg1)) :=
  (W4_of_ne m ρ c main_v1 (by decide)).trans (W3_src m ρ c)

theorem W4_dst (c : Dev nD) : W4 m ρ c (Proc.devRef .tc main_v3) = dstOf (m ((c : Thread nD τ).loc main_arg1)) :=
  (W4_of_ne m ρ c main_v3 (by decide)).trans (W3_dst m ρ c)

theorem W4_arg3 (c : Dev nD) : W4 m ρ c (Proc.devRef .tc main_arg3) = (m ((c : Thread nD τ).loc main_arg3)) :=
  (W4_arr m ρ c 2).trans (((dat1 (V3 m ρ) c).arrAt_in 2 rfl _).trans ((A_eq1 (V3 m ρ) c 2).trans (W3_arg3 m ρ c)))

theorem W4_arg4 (c : Dev nD) : W4 m ρ c (Proc.devRef .tc main_arg4) = (m ((c : Thread nD τ).loc main_arg4)) :=
  (W4_arr m ρ c 3).trans (((dat1 (V3 m ρ) c).arrAt_in 3 rfl _).trans ((A_eq1 (V3 m ρ) c 3).trans (W3_arg4 m ρ c)))

theorem W4_arg5 (c : Dev nD) : W4 m ρ c (Proc.devRef .tc main_arg5) = (m ((c : Thread nD τ).loc main_arg5)) :=
  (W4_of_ne m ρ c main_arg5 (by decide)).trans (W3_arg5 m ρ c)

/-! ## After the third stretch of host operations -/

theorem W5_agg (c : Dev nD) : W5 m ρ c (Proc.devRef .tc main_v35) = agg (m ((c : Thread nD τ).loc main_arg1)) (step (agg (m ((c : Thread nD τ).loc main_arg1))) (m ((c : Thread nD τ).loc main_arg3)) (m ((c : Thread nD τ).loc main_arg4)) (step (agg (m ((c : Thread nD τ).loc main_arg1))) (m ((c : Thread nD τ).loc main_arg3)) (m ((c : Thread nD τ).loc main_arg4)) (m ((c : Thread nD τ).loc main_arg0)))) := by
  show StableHlo.after hostOps2 (W4 m ρ c) (Proc.devRef .tc main_v35) = _
  after_results_simp
  rw [W4_src m ρ c, W4_dst m ρ c, W4_x m ρ c]
  rfl

theorem W5_x (c : Dev nD) : W5 m ρ c (Proc.devRef .tc main_v25) = (step (agg (m ((c : Thread nD τ).loc main_arg1))) (m ((c : Thread nD τ).loc main_arg3)) (m ((c : Thread nD τ).loc main_arg4)) (step (agg (m ((c : Thread nD τ).loc main_arg1))) (m ((c : Thread nD τ).loc main_arg3)) (m ((c : Thread nD τ).loc main_arg4)) (m ((c : Thread nD τ).loc main_arg0)))) :=
  (show StableHlo.after hostOps2 (W4 m ρ c) (Proc.devRef .tc main_v25) = W4 m ρ c (Proc.devRef .tc main_v25) by
    after_results_simp <;> rfl).trans (W4_x m ρ c)

theorem W5_arg3 (c : Dev nD) : W5 m ρ c (Proc.devRef .tc main_arg3) = (m ((c : Thread nD τ).loc main_arg3)) :=
  (show StableHlo.after hostOps2 (W4 m ρ c) (Proc.devRef .tc main_arg3) = W4 m ρ c (Proc.devRef .tc main_arg3) by
    after_results_simp <;> rfl).trans (W4_arg3 m ρ c)

theorem W5_arg4 (c : Dev nD) : W5 m ρ c (Proc.devRef .tc main_arg4) = (m ((c : Thread nD τ).loc main_arg4)) :=
  (show StableHlo.after hostOps2 (W4 m ρ c) (Proc.devRef .tc main_arg4) = W4 m ρ c (Proc.devRef .tc main_arg4) by
    after_results_simp <;> rfl).trans (W4_arg4 m ρ c)

theorem W5_arg5 (c : Dev nD) : W5 m ρ c (Proc.devRef .tc main_arg5) = (m ((c : Thread nD τ).loc main_arg5)) :=
  (show StableHlo.after hostOps2 (W4 m ρ c) (Proc.devRef .tc main_arg5) = W4 m ρ c (Proc.devRef .tc main_arg5) by
    after_results_simp <;> rfl).trans (W4_arg5 m ρ c)

/-! ## After the third layer's region, and after the readout's -/

theorem W6_x (c : Dev nD) : W6 m ρ c (Proc.devRef .tc main_v36) = (step (agg (m ((c : Thread nD τ).loc main_arg1))) (m ((c : Thread nD τ).loc main_arg3)) (m ((c : Thread nD τ).loc main_arg4)) (step (agg (m ((c : Thread nD τ).loc main_arg1))) (m ((c : Thread nD τ).loc main_arg3)) (m ((c : Thread nD τ).loc main_arg4)) (step (agg (m ((c : Thread nD τ).loc main_arg1))) (m ((c : Thread nD τ).loc main_arg3)) (m ((c : Thread nD τ).loc main_arg4)) (m ((c : Thread nD τ).loc main_arg0))))) :=
  (W6_arr m ρ c 4).trans ((Region2.final (V5 m ρ) c).trans
    (layer_congr (W5_agg m ρ c) (W5_x m ρ c) (W5_arg3 m ρ c) (W5_arg4 m ρ c)))

theorem W6_arg5 (c : Dev nD) : W6 m ρ c (Proc.devRef .tc main_arg5) = (m ((c : Thread nD τ).loc main_arg5)) :=
  (W6_of_ne m ρ c main_arg5 (by decide)).trans (W5_arg5 m ρ c)

/-- The scores' buffer after the whole fold: the network function of the arguments as launched. -/
theorem result_eq (c : Dev nD) : W7 m ρ c (Proc.devRef .tc main_v37)
    = net (agg (m ((c : Thread nD τ).loc main_arg1))) (m ((c : Thread nD τ).loc main_arg0)) (m ((c : Thread nD τ).loc main_arg3)) (m ((c : Thread nD τ).loc main_arg4)) (m ((c : Thread nD τ).loc main_arg5)) :=
  (W7_arr m ρ c 2).trans ((Region3.final (V6 m ρ) c).trans (readout_congr (W6_x m ρ c) (W6_arg5 m ρ c)))

end Cert.GConv.KernelValue

end
-- ==== Proof.RefValue.lean ====
/-
  The reference program computes the network function. Its aggregation is the host's gather of the source rows
  followed by a scatter-add onto zeros at the destination rows; it is named here and never opened. Each of its three
  rounds multiplies the aggregate and the features with the transposed weight matrices — entry `(p, q)` of
  `y · Wᵀ` is `∑ k, y (p, k) * W (q, k)` —, adds the two products and takes the larger of the sum and 0; its last
  operation multiplies the features with the transposed probing row, `∑ k, x (p, k) * e (0, k)`.
-/
import proofs.«138396_j71485435674712_2_alg».proof.Proof.Gen.ReferenceIdeal.Read
import proofs.«138396_j71485435674712_2_alg».proof.Proof.Spec

noncomputable section

namespace Cert.GConv.RefValue

open Cert.ReferenceIdeal Cert.ReferenceIdeal.Gen Cert.ReferenceIdeal.Read
open Idealize.ShloMosaic Idealize.ShloMosaic.ValueIdx Cert.GConv

/-- The reference's aggregation of node features `x` over the edge list `ei`: gather the rows named by the edge
    sources, scatter-add them onto zeros at the rows named by the edge destinations. -/
def agg (ei : (⟨S2x800000, .i32⟩ : BufTy).Contents (Elt Ideal)) (x : (⟨S50000x64, .f32⟩ : BufTy).Contents (Elt Ideal)) :
    (⟨S50000x64, .f32⟩ : BufTy).Contents (Elt Ideal) :=
  val_main_v13 (F := Ideal) x ei

/-- Features against the transposed weights: entry `(p, q)` is `∑ k, y (p, k) * w (q, k)`. -/
theorem product_apply (y : (⟨S50000x64, .f32⟩ : BufTy).Contents (Elt Ideal)) (w : (⟨S64x64, .f32⟩ : BufTy).Contents (Elt Ideal))
    (p : Fin 50000) (q : Fin 64) :
    val_main_v17 (F := Ideal) y w (ix2 p q) = ∑ k : Fin 64, y (ix2 p k) * w (ix2 q k) := by
  rw [val_main_v17_apply]
  refine Finset.sum_congr rfl fun k _ => ?_
  rw [val_main_v16_apply]
  have e1 : lidx_main_v17 (ix2 p q) k = ix2 p k :=
    funext fun a => Fin.ext (by match a with | ⟨0, _⟩ => rfl | ⟨1, _⟩ => rfl)
  have e2 : idx_main_v16 (ridx_main_v17 (ix2 p q) k) = ix2 q k :=
    funext fun a => Fin.ext (by match a with | ⟨0, _⟩ => rfl | ⟨1, _⟩ => rfl)
  rw [e1, e2]

/-- One round of the reference's operations, from an aggregate `a` and features `y`: both products, their sum, and the
    larger of the sum and zero. -/
def refRound (a y : FVec Ideal S50000x64 .f32) (w3 w4 : FVec Ideal S64x64 .f32) : FVec Ideal S50000x64 .f32 :=
  maximumf (addf (val_main_v17 (F := Ideal) a w3) (val_main_v17 (F := Ideal) y w4)) (val_main_call0_v0 (F := Ideal))

/-- One round of the reference is the layer. -/
theorem layer_eq (a y : FVec Ideal S50000x64 .f32) (w3 w4 : FVec Ideal S64x64 .f32) :
    refRound a y w3 w4 = layer a y w3 w4 := by
  funext i
  obtain ⟨p, q, rfl⟩ : ∃ (p : Fin 50000) (q : Fin 64), i = ix2 p q := ⟨i 0, i 1, eq_ix2 i⟩
  rw [layer_apply]
  show max (val_main_v17 (F := Ideal) a w3 (ix2 p q) + val_main_v17 (F := Ideal) y w4 (ix2 p q))
    (val_main_call0_v0 (F := Ideal) (ix2 p q)) = _
  rw [product_apply, product_apply, val_main_call0_v0_apply, val_main_call0_cst_apply, Ideal.ofBits_def,
    Ideal.ofBits_zero_f32]
  rfl

/-- The first round's result. -/
theorem round1 (x0 : (⟨S50000x64, .f32⟩ : BufTy).Contents (Elt Ideal)) (x1 : (⟨S2x800000, .i32⟩ : BufTy).Contents (Elt Ideal))
    (x3 x4 : (⟨S64x64, .f32⟩ : BufTy).Contents (Elt Ideal)) :
    val_main_v19 (F := Ideal) x0 x1 x3 x4 = step (agg x1) x3 x4 x0 :=
  (show val_main_v19 (F := Ideal) x0 x1 x3 x4
      = refRound (agg x1 x0) x0 x3 x4
    from rfl).trans (layer_eq _ _ _ _)

/-- The second round's result, from the first's. -/
theorem round2 (x0 : (⟨S50000x64, .f32⟩ : BufTy).Contents (Elt Ideal)) (x1 : (⟨S2x800000, .i32⟩ : BufTy).Contents (Elt Ideal))
    (x3 x4 : (⟨S64x64, .f32⟩ : BufTy).Contents (Elt Ideal)) :
    val_main_v35 (F := Ideal) x0 x1 x3 x4 = step (agg x1) x3 x4 (val_main_v19 (F := Ideal) x0 x1 x3 x4) :=
  (show val_main_v35 (F := Ideal) x0 x1 x3 x4
      = refRound (agg x1 (val_main_v19 (F := Ideal) x0 x1 x3 x4)) (val_main_v19 (F := Ideal) x0 x1 x3 x4) x3 x4
    from rfl).trans (layer_eq _ _ _ _)

/-- The third round's result, from the second's. -/
theorem round3 (x0 : (⟨S50000x64, .f32⟩ : BufTy).Contents (Elt Ideal)) (x1 : (⟨S2x800000, .i32⟩ : BufTy).Contents (Elt Ideal))
    (x3 x4 : (⟨S64x64, .f32⟩ : BufTy).Contents (Elt Ideal)) :
    val_main_v51 (F := Ideal) x0 x1 x3 x4 = step (agg x1) x3 x4 (val_main_v35 (F := Ideal) x0 x1 x3 x4) :=
  (show val_main_v51 (F := Ideal) x0 x1 x3 x4
      = refRound (agg x1 (val_main_v35 (F := Ideal) x0 x1 x3 x4)) (val_main_v35 (F := Ideal) x0 x1 x3 x4) x3 x4
    from rfl).trans (layer_eq _ _ _ _)

/-- The reference's result is the network function of its arguments. -/
theorem result_eq (x0 : (⟨S50000x64, .f32⟩ : BufTy).Contents (Elt Ideal)) (x1 : (⟨S2x800000, .i32⟩ : BufTy).Contents (Elt Ideal))
    (x3 x4 : (⟨S64x64, .f32⟩ : BufTy).Contents (Elt Ideal)) (x5 : (⟨S1x64, .f32⟩ : BufTy).Contents (Elt Ideal)) :
    val_main_v53 (F := Ideal) x0 x1 x3 x4 x5 = net (agg x1) x0 x3 x4 x5 := by
  funext i
  obtain ⟨p, u, rfl⟩ : ∃ (p : Fin 50000) (u : Fin 1), i = ix2 p u := ⟨i 0, i 1, eq_ix2 i⟩
  unfold net
  rw [readout_apply, val_main_v53_apply, round3, round2, round1]
  unfold readoutAt
  refine Finset.sum_congr rfl fun k _ => ?_
  rw [val_main_v52_apply]
  have e1 : lidx_main_v53 (ix2 p u) k = ix2 p k :=
    funext fun a => Fin.ext (by match a with | ⟨0, _⟩ => rfl | ⟨1, _⟩ => rfl)
  have e2 : idx_main_v52 (ridx_main_v53 (ix2 p u) k) = ix2 (0 : Fin 1) k :=
    funext fun a => Fin.ext (by
      match a with
      | ⟨0, _⟩ => show u.val = 0; omega
      | ⟨1, _⟩ => rfl)
  rw [e1, e2]

end Cert.GConv.RefValue

end
-- ==== Proof.Claims.lean ====
/-
  The claims. The three programs run: the two kernel programs by the launch over their seven stretches, the reference
  by its host operations' run. Nothing was rewritten between the kernel program and its idealization. At the exact
  values both idealized programs end with the network function of the same arguments in their result: the kernel
  program by following its stretches, the reference by reading its operations, and the two aggregations are the same
  host operations on the same edge list.
-/
import proofs.«138396_j71485435674712_2_alg».proof.Defs
import proofs.«138396_j71485435674712_2_alg».proof.Proof.Gen.Kernel.Frame
import proofs.«138396_j71485435674712_2_alg».proof.Proof.Gen.KernelIdeal.Frame
import proofs.«138396_j71485435674712_2_alg».proof.Proof.Gen.ReferenceIdeal.Run
import proofs.«138396_j71485435674712_2_alg».proof.Proof.Gen.ReferenceIdeal.Read
import proofs.«138396_j71485435674712_2_alg».proof.Proof.Gen.Pre_finite_inputs
import proofs.«138396_j71485435674712_2_alg».proof.Proof.KernelRun
import proofs.«138396_j71485435674712_2_alg».proof.Proof.KernelValue
import proofs.«138396_j71485435674712_2_alg».proof.Proof.RefValue

noncomputable section

open Idealize.ShloMosaic Idealize.ShloMosaic.TcCoe Idealize.SL.Sem

namespace Cert.GConv

/-- Both programs aggregate by the same host operations: the kernel program's aggregation is the reference's. -/
theorem agg_eq (ei : (⟨Cert.KernelIdeal.S2x800000, .i32⟩ : BufTy).Contents (Elt Ideal))
    (x : (⟨Cert.KernelIdeal.S50000x64, .f32⟩ : BufTy).Contents (Elt Ideal)) :
    KernelValue.agg ei x = RefValue.agg ei x := rfl

end Cert.GConv

namespace Cert.Proof.Claims

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments both idealized programs end with the network function of those
    arguments in their result. -/
theorem algebraic : Cert.algebraic_KernelIdeal_ReferenceIdeal := by
  intro m ρ m' ρ' _ hagree
  refine ⟨fun c => Cert.GConv.net
      (Cert.GConv.KernelValue.agg (m ((c.tc : Thread Cert.KernelIdeal.nD Cert.KernelIdeal.τ).loc Cert.KernelIdeal.main_arg1)))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.GConv.KernelValue.result_eq m ρ c), (h c).2⟩)
      (Cert.GConv.KernelRun.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v53_eq, Cert.GConv.RefValue.result_eq,
      (hagree c).1, (hagree c).2.1, (hagree c).2.2.2.1, (hagree c).2.2.2.2.1, (hagree c).2.2.2.2.2]
    exact congrArg (fun A => Cert.GConv.net A _ _ _ _) (funext fun x => (Cert.GConv.agg_eq _ x).symm)

end Cert.Proof.Claims

end
-- ==== Proof.lean ====
/-
  The certificate of a three-layer graph convolution with a readout: a kernel program of three layer kernels and a
  readout kernel among host operations, against a reference of host operations only. Both compute, at the exact values,
  three rounds of `max (agg · W_rel^T + x · W_root^T) 0` — `agg` the host's gather and scatter-add of the current
  features over the edge list — and then the features against a probing row. The modules: the network function
  (Spec), the kernels' arithmetic at an entry (Payloads), a block of rows as a restriction of the whole array (Blocks),
  each kernel's region from the contents it is entered with (Region0 … Region3), the kernel program's run with its
  result named (KernelRun) and that result followed through the program's stretches (KernelValue), the reference's
  operations read as the same function (RefValue), and the five claims (Claims).
-/
import proofs.«138396_j71485435674712_2_alg».proof.Defs
import proofs.«138396_j71485435674712_2_alg».proof.Proof.Gen.Kernel
import proofs.«138396_j71485435674712_2_alg».proof.Proof.Gen.KernelIdeal
import proofs.«138396_j71485435674712_2_alg».proof.Proof.Gen.ReferenceIdeal
import proofs.«138396_j71485435674712_2_alg».proof.Proof.Gen.Pre_finite_inputs
import proofs.«138396_j71485435674712_2_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_kernel, Claims.frame_kernelIdeal, Claims.frame_referenceIdeal, Claims.preserves, Claims.algebraic⟩

end Cert.Proof

end
